-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x16x128 : Shape := ⟨4, ![2, 2048, 16, 128]⟩
abbrev S2x2048x4x128 : Shape := ⟨4, ![2, 2048, 4, 128]⟩
abbrev S_ : Shape := ⟨0, ![]⟩

class Facts : Prop where
  bcast_S_S2x2048x16x128 : S_.BroadcastsInDim S2x2048x16x128 (![] : Fin 0 → Fin S2x2048x16x128.rank)
  reducesTo_S2x2048x16x128_S_d0_1_2_3 : S2x2048x16x128.ReducesTo [0, 1, 2, 3] S_
  h_S_ : 0 < S_.numel
  bcast_S_S2x2048x4x128 : S_.BroadcastsInDim S2x2048x4x128 (![] : Fin 0 → Fin S2x2048x4x128.rank)
  reducesTo_S2x2048x4x128_S_d0_1_2_3 : S2x2048x4x128.ReducesTo [0, 1, 2, 3] S_

variable [Facts]

def fn {F : FTy → Type} [FloatOps F] (main_arg0 : FVec F S2x2048x16x128 .f32) (main_arg1 : FVec F S2x2048x4x128 .f32) (main_arg2 : FVec F S2x2048x4x128 .f32) : IVec S_ 1 :=
  let main_v0 : FVec F S2x2048x16x128 .f32 := Host.absf main_arg0
  let main_cst : FVec F S_ .f32 := constant S_ .f32 0x7F800000#32
  let main_v1 : FVec F S2x2048x16x128 .f32 := broadcastInDim S2x2048x16x128 ![] bcast_S_S2x2048x16x128 main_cst
  let main_v2 : IVec S2x2048x16x128 1 := cmpf .olt main_v0 main_v1
  let main_c : IVec S_ 1 := constantI S_ 1 1#1
  let main_v3 : IVec S_ 1 := (fun x v => Host.reduce IntOp.andi x v reducesTo_S2x2048x16x128_S_d0_1_2_3 h_S_) main_v2 main_c
  let main_v4 : FVec F S2x2048x4x128 .f32 := Host.absf main_arg1
  let main_cst_0 : FVec F S_ .f32 := constant S_ .f32 0x7F800000#32
  let main_v5 : FVec F S2x2048x4x128 .f32 := broadcastInDim S2x2048x4x128 ![] bcast_S_S2x2048x4x128 main_cst_0
  let main_v6 : IVec S2x2048x4x128 1 := cmpf .olt main_v4 main_v5
  let main_c_1 : IVec S_ 1 := constantI S_ 1 1#1
  let main_v7 : IVec S_ 1 := (fun x v => Host.reduce IntOp.andi x v reducesTo_S2x2048x4x128_S_d0_1_2_3 h_S_) main_v6 main_c_1
  let main_v8 : IVec S_ 1 := andi main_v3 main_v7
  let main_v9 : FVec F S2x2048x4x128 .f32 := Host.absf main_arg2
  let main_cst_2 : FVec F S_ .f32 := constant S_ .f32 0x7F800000#32
  let main_v10 : FVec F S2x2048x4x128 .f32 := broadcastInDim S2x2048x4x128 ![] bcast_S_S2x2048x4x128 main_cst_2
  let main_v11 : IVec S2x2048x4x128 1 := cmpf .olt main_v9 main_v10
  let main_c_3 : IVec S_ 1 := constantI S_ 1 1#1
  let main_v12 : IVec S_ 1 := (fun x v => Host.reduce IntOp.andi x v reducesTo_S2x2048x4x128_S_d0_1_2_3 h_S_) main_v11 main_c_3
  let main_v13 : IVec S_ 1 := andi main_v8 main_v12
  main_v13
-- ==== Kernel.lean ====
abbrev S2x2048x16x128 : Shape := ⟨4, ![2, 2048, 16, 128]⟩
abbrev S2x2048x4x128 : Shape := ⟨4, ![2, 2048, 4, 128]⟩
abbrev S2x16x2048x128 : Shape := ⟨4, ![2, 16, 2048, 128]⟩
abbrev S2x4x2048x128 : Shape := ⟨4, ![2, 4, 2048, 128]⟩
abbrev S1x1x256x128 : Shape := ⟨4, ![1, 1, 256, 128]⟩
abbrev S1x1x2048x128 : Shape := ⟨4, ![1, 1, 2048, 128]⟩
abbrev S256x128 : Shape := ⟨2, ![256, 128]⟩
abbrev S2048x128 : Shape := ⟨2, ![2048, 128]⟩
abbrev S128x2048 : Shape := ⟨2, ![128, 2048]⟩
abbrev S256x2048 : Shape := ⟨2, ![256, 2048]⟩
abbrev S256x1 : Shape := ⟨2, ![256, 1]⟩
abbrev S1x2048 : Shape := ⟨2, ![1, 2048]⟩
abbrev S256 : Shape := ⟨1, ![256]⟩

abbrev nBuf : Space → Nat
  | .hbm => 11
  | .vmem => 8
  | .smem => 0
  | _ => 0

abbrev bufTy : (tb : Table) → Fin (tcTables nBuf tb) → BufTy
  | .hbm, ⟨0, _⟩ => ⟨S2x2048x16x128, .f32⟩
  | .hbm, ⟨1, _⟩ => ⟨S2x2048x4x128, .f32⟩
  | .hbm, ⟨2, _⟩ => ⟨S2x2048x4x128, .f32⟩
  | .hbm, ⟨3, _⟩ => ⟨S2x16x2048x128, .f32⟩
  | .hbm, ⟨4, _⟩ => ⟨S2x16x2048x128, .bf16⟩
  | .hbm, ⟨5, _⟩ => ⟨S2x4x2048x128, .f32⟩
  | .hbm, ⟨6, _⟩ => ⟨S2x4x2048x128, .bf16⟩
  | .hbm, ⟨7, _⟩ => ⟨S2x4x2048x128, .f32⟩
  | .hbm, ⟨8, _⟩ => ⟨S2x4x2048x128, .bf16⟩
  | .hbm, ⟨9, _⟩ => ⟨S2x16x2048x128, .f32⟩
  | .hbm, ⟨10, _⟩ => ⟨S2x2048x16x128, .f32⟩
  | .local _ .vmem, ⟨0, _⟩ => ⟨S1x1x256x128, .bf16⟩
  | .local _ .vmem, ⟨1, _⟩ => ⟨S1x1x256x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x1x256x128, .f32⟩
  | .local _ .vmem, ⟨7, _⟩ => ⟨S1x1x256x128, .f32⟩
  | _, _ => ⟨S2x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  transposes_S2x2048x16x128_S2x16x2048x128_0_2_1_3 : S2x2048x16x128.Transposes [0, 2, 1, 3] S2x16x2048x128
  bitsLt_bf16_f32 : FTy.bits .bf16 < FTy.bits .f32
  transposes_S2x2048x4x128_S2x4x2048x128_0_2_1_3 : S2x2048x4x128.Transposes [0, 2, 1, 3] S2x4x2048x128
  inb_S1x1x256x128_S1x1x256x128_0_0_0_0 : ∀ a, (![0, 0, 0, 0] : Fin 4 → Nat) a + S1x1x256x128.size a ≤ S1x1x256x128.size a
  h_S1x1x256x128 : 0 < S1x1x256x128.numel
  shapeCasts_S1x1x256x128_S256x128 : S1x1x256x128.ShapeCasts S256x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  transposes_S2048x128_p1_0_S128x2048 : S2048x128.Transposes [1, 0] S128x2048
  iota_S256x1_d0_w32 : S256x1.Iotas .tc 32 [0]
  iota_S1x2048_d1_w32 : S1x2048.Iotas .tc 32 [1]
  broadcasts_S1x2048_S256x2048 : S1x2048.Broadcasts S256x2048
  broadcasts_S256x1_S256x2048 : S256x1.Broadcasts S256x2048
  reduces_S256x2048_S256 : S256x2048.Reduces [1] S256
  shapeCasts_S256_S256x1 : S256.ShapeCasts S256x1
  shapeCasts_S256x128_S1x1x256x128 : S256x128.ShapeCasts S1x1x256x128
  transposes_S2x16x2048x128_S2x2048x16x128_0_2_1_3 : S2x16x2048x128.Transposes [0, 2, 1, 3] S2x2048x16x128
  dot_S256x128_S128x2048_S256x2048_1_0_0_1_n_n_wf : DotDims.WF S256x128 S128x2048 S256x2048 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x128.size a ≤ S2x16x2048x128.size a
  hwx0_0 : ∀ i : grid0.Coords, EltTy.bits .bf16 = 32 ∨ (Rect.block (s := S2x16x2048x128) S1x1x256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x128.size a ≤ S2x4x2048x128.size a
  hwx0_1 : ∀ i : grid0.Coords, EltTy.bits .bf16 = 32 ∨ (Rect.block (s := S2x4x2048x128) S1x1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x128.size a ≤ S2x4x2048x128.size a
  hwx0_2 : ∀ i : grid0.Coords, EltTy.bits .bf16 = 32 ∨ (Rect.block (s := S2x4x2048x128) S1x1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x128.size a ≤ S2x16x2048x128.size a
  hwx0_3 : ∀ i : grid0.Coords, EltTy.bits .f32 = 32 ∨ (Rect.block (s := S2x16x2048x128) S1x1x256x128.size (cc0_transform_3 i) (hinb0_3 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_v1) S1x1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x16x128 : Shape := ⟨4, ![2, 2048, 16, 128]⟩
abbrev S2x2048x4x128 : Shape := ⟨4, ![2, 2048, 4, 128]⟩
abbrev S2x2048x4x4x128 : Shape := ⟨5, ![2, 2048, 4, 4, 128]⟩
abbrev S2x16x2048x128 : Shape := ⟨4, ![2, 16, 2048, 128]⟩
abbrev S2x16x2048x2048 : Shape := ⟨4, ![2, 16, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 71
  | .vmem => 0
  | .smem => 0
  | _ => 0

abbrev bufTy : (tb : Table) → Fin (tcTables nBuf tb) → BufTy
  | .hbm, ⟨0, _⟩ => ⟨S2x2048x16x128, .f32⟩
  | .hbm, ⟨1, _⟩ => ⟨S2x2048x4x128, .f32⟩
  | .hbm, ⟨2, _⟩ => ⟨S2x2048x4x128, .f32⟩
  | .hbm, ⟨3, _⟩ => ⟨S2x2048x4x4x128, .f32⟩
  | .hbm, ⟨4, _⟩ => ⟨S2x2048x16x128, .f32⟩
  | .hbm, ⟨5, _⟩ => ⟨S2x2048x4x4x128, .f32⟩
  | .hbm, ⟨6, _⟩ => ⟨S2x2048x16x128, .f32⟩
  | .hbm, ⟨7, _⟩ => ⟨S2x16x2048x128, .f32⟩
  | .hbm, ⟨8, _⟩ => ⟨S2x16x2048x128, .f32⟩
  | .hbm, ⟨9, _⟩ => ⟨S2x16x2048x128, .f32⟩
  | .hbm, ⟨10, _⟩ => ⟨S2x16x2048x2048, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S2048x1, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048x2048, .f32⟩
  | .hbm, ⟨37, _⟩ => ⟨S2x16x2048x2048, .f32⟩
  | .hbm, ⟨38, _⟩ => ⟨S1x1x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S_, .f32⟩
  | .hbm, ⟨44, _⟩ => ⟨S2x16x2048, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S_, .f32⟩
  | .hbm, ⟨51, _⟩ => ⟨S2x16x2048, .f32⟩
  | .hbm, ⟨52, _⟩ => ⟨S2x16x2048x1, .f32⟩
  | .hbm, ⟨53, _⟩ => ⟨S2x16x2048x2048, .f32⟩
  | .hbm, ⟨54, _⟩ => ⟨S2x16x2048x2048, .f32⟩
  | .hbm, ⟨55, _⟩ => ⟨S_, .f32⟩
  | .hbm, ⟨56, _⟩ => ⟨S2x16x2048x2048, .f32⟩
  | .hbm, ⟨57, _⟩ => ⟨S2x16x2048x2048, .f32⟩
  | .hbm, ⟨58, _⟩ => ⟨S_, .f32⟩
  | .hbm, ⟨59, _⟩ => ⟨S2x16x2048x2048, .f32⟩
  | .hbm, ⟨60, _⟩ => ⟨S2x16x2048x2048, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S2x16x2048x2048, .f32⟩
  | .hbm, ⟨65, _⟩ => ⟨S2x16x2048x2048, .f32⟩
  | .hbm, ⟨66, _⟩ => ⟨S_, .f32⟩
  | .hbm, ⟨67, _⟩ => ⟨S2x16x2048x2048, .f32⟩
  | .hbm, ⟨68, _⟩ => ⟨S2x16x2048x2048, .f32⟩
  | .hbm, ⟨69, _⟩ => ⟨S2x16x2048x128, .f32⟩
  | .hbm, ⟨70, _⟩ => ⟨S2x2048x16x128, .f32⟩
  | _, _ => ⟨S2x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]

class Facts₀ : Prop where
  bcast_S2x2048x4x128_S2x2048x4x4x128_0_1_2_4 : S2x2048x4x128.BroadcastsInDim S2x2048x4x4x128 (![0, 1, 2, 4] : Fin 4 → Fin S2x2048x4x4x128.rank)
  shapeCasts_S2x2048x4x4x128_S2x2048x16x128 : S2x2048x4x4x128.ShapeCasts S2x2048x16x128
  transposes_S2x2048x16x128_S2x16x2048x128_0_2_1_3 : S2x2048x16x128.Transposes [0, 2, 1, 3] S2x16x2048x128
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x1 : S_.BroadcastsInDim S2048x1 (![] : Fin 0 → Fin S2048x1.rank)
  bcast_S_S2048x2048 : S_.BroadcastsInDim S2048x2048 (![] : Fin 0 → Fin S2048x2048.rank)
  bcast_S_S2x16x2048x2048 : S_.BroadcastsInDim S2x16x2048x2048 (![] : Fin 0 → Fin S2x16x2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Attn.lean ====
/-
  Sliding-window attention with a capped score and clipped weights, one query row at a time, on the
  extended reals.

  For a query at absolute position `qpos`, raw scores `sc k` against the 2048 keys and one column `vv k`
  of the values:
    capped s   = c30 · tanh (s · cscale)
    allowed k  ⇔ k ≤ qpos ∧ k ≥ qpos − 1024            (signed 32-bit comparisons)
    masked k   = capped (sc k) where allowed, −∞ elsewhere
    rowMax     = the maximum of masked over the keys
    expo k     = exp (masked k − rowMax)
    denom      = ∑ₖ expo k
    weight k   = min c1 (max c0 (c106 · (expo k / denom) + cm003))
    rowOut     = ∑ₖ weight k · vv k
  The float literals stay the words the two programs print; none is evaluated except the zero and −∞.
  `G` is the whole result: entry (b, q, h, d) is `rowOut` at position q of the scores of query row
  (b, q, h) against the keys of kv-head h / 4 and of column d of that head's values.

  The one law used later: adding a mask that is 0 where allowed and −∞ elsewhere to a score IS
  selecting the score where allowed and −∞ elsewhere (`x + 0 = x`, `x + −∞ = −∞` on the extended reals).
-/
import Idealize.ShloMosaic.PureOps.Ideal.Laws
import Idealize.ShloMosaic.Lib.ValueIdx

noncomputable section

namespace Cert.Attn

open Idealize.ShloMosaic Idealize.ShloMosaic.ValueIdx

/-- Key `k` is visible from the query at `qpos`: not after it, and at most 1024 before it. -/
def allowed (qpos : BitVec 32) (k : Fin 2048) : BitVec 1 :=
  IntOp.andi (IntOp.cmpi .sle (BitVec.ofNat 32 k.val) qpos)
    (IntOp.cmpi .sge (BitVec.ofNat 32 k.val) (IntOp.subi qpos 1024#32))

/-- The capped score: 30 · tanh (s · scale). -/
def capped (s : EReal) : EReal :=
  Ideal.ofBits .f32 0x41F00000#32 * Ideal.tanh (s * Ideal.ofBits .f32 0x3DB504F3#32)

/-- The capped score where the key is visible, −∞ where it is not. -/
def masked (qpos : BitVec 32) (sc : Fin 2048 → EReal) (k : Fin 2048) : EReal :=
  Scalar.select (allowed qpos k) (capped (sc k)) ⊥

/-- The row's maximum. -/
def rowMax (qpos : BitVec 32) (sc : Fin 2048 → EReal) : EReal :=
  (Finset.univ : Finset (Fin 2048)).fold max ⊥ (masked qpos sc)

/-- The shifted exponential. -/
def expo (qpos : BitVec 32) (sc : Fin 2048 → EReal) (k : Fin 2048) : EReal :=
  Ideal.exp (masked qpos sc k - rowMax qpos sc)

/-- The softmax denominator. -/
def denom (qpos : BitVec 32) (sc : Fin 2048 → EReal) : EReal :=
  ∑ k : Fin 2048, expo qpos sc k

/-- The affine map and clamp applied to a normalised weight: min 1 (max 0 (1.06 · a − 0.03)). -/
def clipw (a : EReal) : EReal :=
  min (Ideal.ofBits .f32 0x3F800000#32)
    (max (Ideal.ofBits .f32 0x00000000#32)
      (Ideal.ofBits .f32 0x3F87AE14#32 * a + Ideal.ofBits .f32 0xBCF5C28F#32))

/-- The clipped attention weight of key `k`. -/
def weight (qpos : BitVec 32) (sc : Fin 2048 → EReal) (k : Fin 2048) : EReal :=
  clipw (Ideal.div (expo qpos sc k) (denom qpos sc))

/-- One output entry: the weights against one column of the values. -/
def rowOut (qpos : BitVec 32) (sc vv : Fin 2048 → EReal) : EReal :=
  ∑ k : Fin 2048, weight qpos sc k * vv k

/-- The kv-head a query head reads: four query heads share one. -/
def kvh (h : Fin 16) : Fin 4 := ⟨h.val / 4, by have := h.isLt; omega⟩

/-- The raw score of query row (b, q, h) against key `k` of its kv-head. -/
def score (Q : (⟨4, ![2, 2048, 16, 128]⟩ : Shape).Idx → EReal) (K : (⟨4, ![2, 2048, 4, 128]⟩ : Shape).Idx → EReal)
    (b : Fin 2) (q : Fin 2048) (h : Fin 16) (k : Fin 2048) : EReal :=
  ∑ d : Fin 128, Q (ix4 b q h d) * K (ix4 b k (kvh h) d)

/-- The result at coordinates (b, q, h, d). -/
def Gat (Q : (⟨4, ![2, 2048, 16, 128]⟩ : Shape).Idx → EReal) (K V : (⟨4, ![2, 2048, 4, 128]⟩ : Shape).Idx → EReal)
    (b : Fin 2) (q : Fin 2048) (h : Fin 16) (d : Fin 128) : EReal :=
  rowOut (BitVec.ofNat 32 q.val) (score Q K b q h) (fun k => V (ix4 b k (kvh h) d))

/-- The whole result array, in the arguments' layout (batch, position, head, feature). -/
def G (Q : (⟨4, ![2, 2048, 16, 128]⟩ : Shape).Idx → EReal) (K V : (⟨4, ![2, 2048, 4, 128]⟩ : Shape).Idx → EReal) :
    (⟨4, ![2, 2048, 16, 128]⟩ : Shape).Idx → EReal :=
  fun j => Gat Q K V (j 0) (j 1) (j 2) (j 3)

theorem G_ix4 (Q : (⟨4, ![2, 2048, 16, 128]⟩ : Shape).Idx → EReal) (K V : (⟨4, ![2, 2048, 4, 128]⟩ : Shape).Idx → EReal)
    (b : Fin 2) (q : Fin 2048) (h : Fin 16) (d : Fin 128) : G Q K V (ix4 b q h d) = Gat Q K V b q h d := rfl

/-- The pattern of −∞ denotes the bottom of the extended reals. -/
theorem ofBits_neg_inf : Ideal.ofBits .f32 0xFF800000#32 = ⊥ := by simp [Ideal.ofBits, Ideal.ieee]

/-- Adding the additive mask (0 where visible, −∞ elsewhere) is selecting: `x + 0 = x`, `x + −∞ = −∞`. -/
theorem add_mask_eq_select (c : BitVec 1) (x : EReal) :
    x + Scalar.select c (Ideal.ofBits .f32 0x00000000#32) (Ideal.ofBits .f32 0xFF800000#32) = Scalar.select c x ⊥ := by
  rcases BitVec.eq_zero_or_eq_one c with h | h
  · subst h; rw [select_zero, select_zero, ofBits_neg_inf, EReal.add_bot]
  · subst h; rw [select_one, select_one, Ideal.ofBits_zero_f32, add_zero]

/-- The maximum with −∞ in front changes nothing. -/
theorem max_bot_left (x : EReal) : max (Ideal.ofBits .f32 0xFF800000#32) x = x := by
  rw [ofBits_neg_inf]; exact max_eq_right bot_le

end Cert.Attn

end
-- ==== Proof.KOps.lean ====
/-
  The kernel body's non-pointwise operations, each read at an index of its result, at the ideal instance
  (floats are extended reals).

  A query block is 256 rows by 128 features, the key and value blocks 2048 rows by 128 features, each staged with two
  leading unit axes. Written r for a query row of the block, k for a key, e and d for features:
  * dropping the two unit axes reads (0, 0, a, b) at (a, b); adding them back reads (a, b) at (0, 0, a, b);
  * the score product Q · Kᵀ at (r, k) is ∑ₑ Q (r, e) · K (k, e): the transposed keys at (e, k) are the keys at (k, e);
  * the weights' product with the values at (r, d) is ∑ₖ W (r, k) · V (k, d);
  * a row maximum from −∞ over the 2048 keys, kept as a column and broadcast back along the row, is at (r, k) the
    maximum over k' of the entries (r, k'); a row sum from 0 likewise the sum over k';
  * the two position vectors: the key axis counts 0 … 2047 along the row, the query axis counts from the block's
    first position down the column.
-/
import proofs.«164655_j35837207118659_2_alg».proof.Proof.Gen.KernelIdeal
import proofs.«164655_j35837207118659_2_alg».proof.Proof.Attn
import Idealize.ShloMosaic.Lib.Pipeline.Value
import Idealize.ShloMosaic.Lib.ValueIdx
import Idealize.ShloMosaic.PureOps.Ideal.Laws

noncomputable section

namespace Cert.KernelIdeal.KOps

open Cert.KernelIdeal Idealize.ShloMosaic Idealize.ShloMosaic.ValueIdx
open Facts₀ Facts

/-! ## The unit axes of a staged block -/

/-- A [1, 1, a, b] block viewed [a, b] reads (0, 0, x, y) at (x, y). -/
theorem dropUnits_at {a b : Nat} {α : Type} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) := by
  refine shapeCast_apply x h (ix2 p q) (ix4 (0 : Fin 1) (0 : Fin 1) p q) ?_
  rw [Shape.rowMajor_val_four, Shape.rowMajor_val_two]
  show ((0 * 1 + 0) * a + p.val) * b + q.val = p.val * b + q.val
  simp

/-- An [a, b] result stored as a [1, 1, a, b] block reads (x, y) at (0, 0, x, y). -/
theorem addUnits_at {a b : Nat} {α : Type} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) := by
  refine shapeCast_apply x h (ix4 (0 : Fin 1) (0 : Fin 1) p q) (ix2 p q) ?_
  rw [Shape.rowMajor_val_four, Shape.rowMajor_val_two]
  show p.val * b + q.val = ((0 * 1 + 0) * a + p.val) * b + q.val
  simp

/-! ## The two matrix products -/

theorem scores_at_lhs0 (j : S256x2048.Idx) (q : dot_S256x128_S128x2048_S256x2048_1_0_0_1_n_n.contr.Idx) : (dot_S256x128_S128x2048_S256x2048_1_0_0_1_n_n.lhsIdx j q 0).val = (j 0).val := by
  unfold DotDims.lhsIdx
  rw [dif_neg (show ¬(0 : Fin S256x128.rank) ∈ dot_S256x128_S128x2048_S256x2048_1_0_0_1_n_n.lhsBatch by decide), dif_pos (show (0 : Fin S256x128.rank) ∈ dot_S256x128_S128x2048_S256x2048_1_0_0_1_n_n.lhsNonContracting by decide)]
  rfl
theorem scores_at_lhs1 (j : S256x2048.Idx) (q : dot_S256x128_S128x2048_S256x2048_1_0_0_1_n_n.contr.Idx) : (dot_S256x128_S128x2048_S256x2048_1_0_0_1_n_n.lhsIdx j q 1).val = (q ⟨0, by decide⟩).val :=
  dot_S256x128_S128x2048_S256x2048_1_0_0_1_n_n.lhsIdx_val_of_single rfl j q
theorem scores_at_rhs0 (j : S256x2048.Idx) (q : dot_S256x128_S128x2048_S256x2048_1_0_0_1_n_n.contr.Idx) : (dot_S256x128_S128x2048_S256x2048_1_0_0_1_n_n.rhsIdx j q 0).val = (q ⟨0, by decide⟩).val :=
  dot_S256x128_S128x2048_S256x2048_1_0_0_1_n_n.rhsIdx_val_of_single rfl j q
theorem scores_at_rhs1 (j : S256x2048.Idx) (q : dot_S256x128_S128x2048_S256x2048_1_0_0_1_n_n.contr.Idx) : (dot_S256x128_S128x2048_S256x2048_1_0_0_1_n_n.rhsIdx j q 1).val = (j 1).val := by
  unfold DotDims.rhsIdx
  rw [dif_neg (show ¬(1 : Fin S128x2048.rank) ∈ dot_S256x128_S128x2048_S256x2048_1_0_0_1_n_n.rhsBatch by decide), dif_pos (show (1 : Fin S128x2048.rank) ∈ dot_S256x128_S128x2048_S256x2048_1_0_0_1_n_n.rhsNonContracting by decide)]
  rfl
/-- Q · Kᵀ into a zero accumulator, at (r, k): the sum over the 128 features of Q (r, e) · Kᵀ (e, k). -/
theorem scores_at (A : FVec Ideal S256x128 .bf16) (B : FVec Ideal S128x2048 .bf16) (r : Fin 256) (k : Fin 2048) :
    matmul dot_S256x128_S128x2048_S256x2048_1_0_0_1_n_n none A B (constant (F := Ideal) S256x2048 .f32 0x00000000#32) (ix2 r k)
      = ∑ e : Fin 128, A (ix2 r e) * B (ix2 e k) := by
  simp only [matmul]
  rw [Ideal.matmul_constant_zero_apply, ← Equiv.sum_comp (contrEquiv1 dot_S256x128_S128x2048_S256x2048_1_0_0_1_n_n 128 rfl rfl).symm]
  refine Finset.sum_congr rfl fun e _ => ?_
  have hk := contrEquiv1_symm_val dot_S256x128_S128x2048_S256x2048_1_0_0_1_n_n 128 rfl rfl e
  have el : dot_S256x128_S128x2048_S256x2048_1_0_0_1_n_n.lhsIdx (ix2 r k) ((contrEquiv1 dot_S256x128_S128x2048_S256x2048_1_0_0_1_n_n 128 rfl rfl).symm e) = ix2 r e :=
    funext fun a => Fin.ext (by
      match a with
      | ⟨0, _⟩ => exact scores_at_lhs0 _ _
      | ⟨1, _⟩ => exact (scores_at_lhs1 _ _).trans hk)
  have er : dot_S256x128_S128x2048_S256x2048_1_0_0_1_n_n.rhsIdx (ix2 r k) ((contrEquiv1 dot_S256x128_S128x2048_S256x2048_1_0_0_1_n_n 128 rfl rfl).symm e) = ix2 e k :=
    funext fun a => Fin.ext (by
      match a with
      | ⟨0, _⟩ => exact (scores_at_rhs0 _ _).trans hk
      | ⟨1, _⟩ => exact scores_at_rhs1 _ _)
  rw [el, er]

theorem mix_at_lhs0 (j : S256x128.Idx) (q : dot_S256x2048_S2048x128_S256x128_1_0_0_1_n_n.contr.Idx) : (dot_S256x2048_S2048x128_S256x128_1_0_0_1_n_n.lhsIdx j q 0).val = (j 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
theorem mix_at_lhs1 (j : S256x128.Idx) (q : dot_S256x2048_S2048x128_S256x128_1_0_0_1_n_n.contr.Idx) : (dot_S256x2048_S2048x128_S256x128_1_0_0_1_n_n.lhsIdx j q 1).val = (q ⟨0, by decide⟩).val :=
  dot_S256x2048_S2048x128_S256x128_1_0_0_1_n_n.lhsIdx_val_of_single rfl j q
theorem mix_at_rhs0 (j : S256x128.Idx) (q : dot_S256x2048_S2048x128_S256x128_1_0_0_1_n_n.contr.Idx) : (dot_S256x2048_S2048x128_S256x128_1_0_0_1_n_n.rhsIdx j q 0).val = (q ⟨0, by decide⟩).val :=
  dot_S256x2048_S2048x128_S256x128_1_0_0_1_n_n.rhsIdx_val_of_single rfl j q
theorem mix_at_rhs1 (j : S256x128.Idx) (q : dot_S256x2048_S2048x128_S256x128_1_0_0_1_n_n.contr.Idx) : (dot_S256x2048_S2048x128_S256x128_1_0_0_1_n_n.rhsIdx j q 1).val = (j 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl
/-- W · V into a zero accumulator, at (r, d): the sum over the 2048 keys of W (r, k) · V (k, d). -/
theorem mix_at (A : FVec Ideal S256x2048 .bf16) (B : FVec Ideal S2048x128 .bf16) (r : Fin 256) (d : Fin 128) :
    matmul dot_S256x2048_S2048x128_S256x128_1_0_0_1_n_n none A B (constant (F := Ideal) S256x128 .f32 0x00000000#32) (ix2 r d)
      = ∑ k : Fin 2048, A (ix2 r k) * B (ix2 k d) := by
  simp only [matmul]
  rw [Ideal.matmul_constant_zero_apply, ← Equiv.sum_comp (contrEquiv1 dot_S256x2048_S2048x128_S256x128_1_0_0_1_n_n 2048 rfl rfl).symm]
  refine Finset.sum_congr rfl fun k _ => ?_
  have hk := contrEquiv1_symm_val dot_S256x2048_S2048x128_S256x128_1_0_0_1_n_n 2048 rfl rfl k
  have el : dot_S256x2048_S2048x128_S256x128_1_0_0_1_n_n.lhsIdx (ix2 r d) ((contrEquiv1 dot_S256x2048_S2048x128_S256x128_1_0_0_1_n_n 2048 rfl rfl).symm k) = ix2 r k :=
    funext fun a => Fin.ext (by
      match a with
      | ⟨0, _⟩ => exact mix_at_lhs0 _ _
      | ⟨1, _⟩ => exact (mix_at_lhs1 _ _).trans hk)
  have er : dot_S256x2048_S2048x128_S256x128_1_0_0_1_n_n.rhsIdx (ix2 r d) ((contrEquiv1 dot_S256x2048_S2048x128_S256x128_1_0_0_1_n_n 2048 rfl rfl).symm k) = ix2 k d :=
    funext fun a => Fin.ext (by
      match a with
      | ⟨0, _⟩ => exact (mix_at_rhs0 _ _).trans hk
      | ⟨1, _⟩ => exact mix_at_rhs1 _ _)
  rw [el, er]

/-- The transposed keys at (e, k) are the keys at (k, e). -/
theorem keysT_at (X : FVec Ideal S2048x128 .bf16) (e : Fin 128) (k : Fin 2048) :
    transpose S128x2048 [1, 0] X transposes_S2048x128_p1_0_S128x2048 (ix2 e k) = X (ix2 k e) :=
  transpose_apply [1, 0] X transposes_S2048x128_p1_0_S128x2048 (ix2 e k) (ix2 k e) (fun b => match b with
    | ⟨0, _⟩ => rfl
    | ⟨1, _⟩ => rfl)

/-! ## A row reduction, kept as a column and broadcast back along the row -/

/-- Row r of a [256, 2048] array with coordinate k put back on the key axis is (r, k). -/
theorem lift_row (h : S256x2048.Reduces [1] S256) (r : Fin 256) (k : Fin (S256x2048.size 1)) :
    h.lift (ix1 r) k = ix2 r (⟨k.val, k.isLt⟩ : Fin 2048) := by
  funext c; apply Fin.ext
  fin_cases c <;> rfl

/-- A column [256, 1] broadcast along the rows of [256, 2048], made from a vector [256], reads its entry r at (r, k). -/
theorem column_at {α : Type} (v : S256.Idx → α) (r : Fin 256) (k : Fin 2048) :
    broadcastTo S256x2048 (shapeCast S256x1 v shapeCasts_S256_S256x1) broadcasts_S256x1_S256x2048 (ix2 r k) = v (ix1 r) := by
  refine (broadcastTo_apply _ broadcasts_S256x1_S256x2048 (ix2 r k) (ix2 r (0 : Fin 1)) (fun a => ?_)).trans ?_
  · match a with
    | ⟨0, _⟩ => show r.val = if (256 : Nat) = 1 then 0 else r.val; rw [if_neg (by decide)]
    | ⟨1, _⟩ => show 0 = if (1 : Nat) = 1 then 0 else k.val; rw [if_pos rfl]
  · refine shapeCast_apply v shapeCasts_S256_S256x1 (ix2 r (0 : Fin 1)) (ix1 r) ?_
    rw [Shape.rowMajor_val_one, Shape.rowMajor_val_two]
    show r.val = r.val * 1 + 0
    omega

/-- The row maximum from −∞, broadcast back: at (r, k) the maximum over the keys k' of the entries (r, k'). -/
theorem rowmax_at (f : FVec Ideal S256x2048 .f32) (hφ : FKind.Formats .f32)
    (hacc : (0xFF800000#32 : BitVec 32) = FKind.maximumf.neutral .f32 hφ) (r : Fin 256) (k : Fin 2048) :
    broadcastTo S256x2048 (shapeCast S256x1 (multiReduction .maximumf [1] S256 f 0xFF800000#32 reduces_S256x2048_S256 hφ hacc)
        shapeCasts_S256_S256x1) broadcasts_S256x1_S256x2048 (ix2 r k)
      = (Finset.univ : Finset (Fin 2048)).fold max ⊥ (fun k' => f (ix2 r k')) := by
  refine (column_at _ r k).trans ?_
  refine (Ideal.multiReduction_maximumf_single f _ reduces_S256x2048_S256 hφ hacc (ix1 r)).trans ?_
  have hf : (f ∘ reduces_S256x2048_S256.lift (ix1 r)) = fun k' : Fin 2048 => f (ix2 r k') :=
    funext fun k' => congrArg f (lift_row _ r k')
  have hb : FloatOps.ofBits (F := Ideal) .f32 0xFF800000#32 = ⊥ := Cert.Attn.ofBits_neg_inf
  exact congrArg₂ (fun a g => Finset.fold max a g (Finset.univ : Finset (Fin 2048))) hb hf

/-- The row sum from 0, broadcast back: at (r, k) the sum over the keys k' of the entries (r, k'). -/
theorem rowsum_at (f : FVec Ideal S256x2048 .f32) (hφ : FKind.Formats .f32)
    (hacc : (0x00000000#32 : BitVec 32) = FKind.add.neutral .f32 hφ) (r : Fin 256) (k : Fin 2048) :
    broadcastTo S256x2048 (shapeCast S256x1 (multiReduction .add [1] S256 f 0x00000000#32 reduces_S256x2048_S256 hφ hacc)
        shapeCasts_S256_S256x1) broadcasts_S256x1_S256x2048 (ix2 r k)
      = ∑ k' : Fin 2048, f (ix2 r k') := by
  refine (column_at _ r k).trans ?_
  refine (Ideal.multiReduction_add_single f _ reduces_S256x2048_S256 hφ hacc (ix1 r)).trans ?_
  exact Finset.sum_congr rfl fun k' _ => congrArg f (lift_row _ r k')

/-! ## The two position vectors -/

/-- The key positions, a row [1, 2048] broadcast down the 256 rows: at (r, k) the number k. -/
theorem keypos_at (r : Fin 256) (k : Fin 2048) :
    broadcastTo S256x2048 (iota .tc S1x2048 32 [1] iota_S1x2048_d1_w32) broadcasts_S1x2048_S256x2048 (ix2 r k) = BitVec.ofNat 32 k.val := by
  refine (broadcastTo_apply _ broadcasts_S1x2048_S256x2048 (ix2 r k) (ix2 (0 : Fin 1) k) (fun a => ?_)).trans ?_
  · match a with
    | ⟨0, _⟩ => show 0 = if (1 : Nat) = 1 then 0 else r.val; rw [if_pos rfl]
    | ⟨1, _⟩ => show k.val = if (2048 : Nat) = 1 then 0 else k.val; rw [if_neg (by decide)]
  · exact iota_single_apply .tc S1x2048 32 1 iota_S1x2048_d1_w32 (ix2 (0 : Fin 1) k)

/-- A column [256, 1] of integers broadcast along the rows reads its entry (r, 0) at (r, k). -/
theorem icolumn_at (v : IVec S256x1 32) (r : Fin 256) (k : Fin 2048) :
    broadcastTo S256x2048 v broadcasts_S256x1_S256x2048 (ix2 r k) = v (ix2 r (0 : Fin 1)) :=
  broadcastTo_apply _ broadcasts_S256x1_S256x2048 (ix2 r k) (ix2 r (0 : Fin 1)) (fun a => match a with
    | ⟨0, _⟩ => by show r.val = if (256 : Nat) = 1 then 0 else r.val; rw [if_neg (by decide)]
    | ⟨1, _⟩ => by show 0 = if (1 : Nat) = 1 then 0 else k.val; rw [if_pos rfl])

/-- The row counter down a column [256, 1]: at (r, 0) the number r. -/
theorem rowpos_at (r : Fin 256) :
    iota .tc S256x1 32 [0] iota_S256x1_d0_w32 (ix2 r (0 : Fin 1)) = BitVec.ofNat 32 r.val :=
  iota_single_apply .tc S256x1 32 0 iota_S256x1_d0_w32 (ix2 r (0 : Fin 1))

end Cert.KernelIdeal.KOps

end
-- ==== Proof.KPay.lean ====
/-
  What the kernel body stores, read at one entry of the output block, at the ideal instance.

  At the grid point with query-block coordinate `i 2`, row r of the block is the query at position
  (i 2) · 256 + r (computed in 32-bit integers, as the body does). The body forms the scores of the block's 256 queries
  against the head's 2048 keys, caps them, replaces the keys a query may not see by the named −∞, takes each row's maximum
  and the exponentials of the differences, normalises by the row sums, applies the affine map and the clamp, and multiplies
  the weights by the values. Entry (r, d) of the stored block is therefore `Attn.rowOut` at that position, of the scores
  ∑ₑ Q (r, e) · K (k, e) and of column d of the values.

  The three definitions below name the body's intermediate arrays — the score product, the visibility mask and the masked
  capped scores — so that each can be read at an index once; the payloads are these compositions by unfolding.
-/
import proofs.«164655_j35837207118659_2_alg».proof.Proof.Gen.KernelIdeal.Skeleton
import proofs.«164655_j35837207118659_2_alg».proof.Proof.KOps

noncomputable section

namespace Cert.KernelIdeal.KPay

open Cert.KernelIdeal Idealize.ShloMosaic Idealize.ShloMosaic.ValueIdx
open Facts₀ Facts
open Cert.KernelIdeal.Gen (k0_pay1 k0_pay2 k0_pay3 k0_pay4)

/-- The position of row r of the query block at grid coordinate `i 2`, as the body computes it. -/
def qposK (i : grid0.Coords) (r : Fin 256) : BitVec 32 :=
  IntOp.addi (Scalar.muli (BitVec.ofNat 32 (i 2).val) 256#32) (BitVec.ofNat 32 r.val)

/-- The named fill is −∞. -/
theorem neg_big_eq : Named.named (F := Ideal) κ "neg_big" (φ := .f32) 0xFF333332#32 = ⊥ :=
  IdealRules.named_const.ideal_named_scalar _ _ _ _ rfl

/-- The block of raw scores, Q · Kᵀ. -/
def scoreBlk (x0 : Vec Ideal S1x1x256x128 .bf16) (x1 : Vec Ideal S1x1x2048x128 .bf16) : FVec Ideal S256x2048 .f32 :=
  matmul dot_S256x128_S128x2048_S256x2048_1_0_0_1_n_n none
    (shapeCast S256x128 x0 shapeCasts_S1x1x256x128_S256x128 : FVec Ideal S256x128 .bf16)
    (transpose S128x2048 [1, 0] (shapeCast S2048x128 x1 shapeCasts_S1x1x2048x128_S2048x128 : FVec Ideal S2048x128 .bf16)
      transposes_S2048x128_p1_0_S128x2048 : FVec Ideal S128x2048 .bf16)
    (constant S256x2048 .f32 0x00000000#32)

/-- The block's visibility mask. -/
def maskBlk (i : grid0.Coords) : IVec S256x2048 1 :=
  andi
    (cmpi .sle (broadcastTo S256x2048 (iota .tc S1x2048 32 [1] iota_S1x2048_d1_w32) broadcasts_S1x2048_S256x2048)
      (broadcastTo S256x2048 (addi (broadcast S256x1 (Scalar.muli (BitVec.ofNat 32 (i 2).val) 256#32)) (iota .tc S256x1 32 [0] iota_S256x1_d0_w32))
        broadcasts_S256x1_S256x2048))
    (cmpi .sge (broadcastTo S256x2048 (iota .tc S1x2048 32 [1] iota_S1x2048_d1_w32) broadcasts_S1x2048_S256x2048)
      (broadcastTo S256x2048
        (subi (addi (broadcast S256x1 (Scalar.muli (BitVec.ofNat 32 (i 2).val) 256#32)) (iota .tc S256x1 32 [0] iota_S256x1_d0_w32))
          (broadcast S256x1 1024#32))
        broadcasts_S256x1_S256x2048))

/-- The capped scores with the invisible keys filled by the named −∞. -/
def maskedBlk (i : grid0.Coords) (x0 : Vec Ideal S1x1x256x128 .bf16) (x1 : Vec Ideal S1x1x2048x128 .bf16) : FVec Ideal S256x2048 .f32 :=
  select (maskBlk i)
    (mulf (broadcast S256x2048 (Scalar.ofBits (F := Ideal) .f32 0x41F00000#32))
      (tanh (mulf (scoreBlk x0 x1) (broadcast S256x2048 (Scalar.ofBits (F := Ideal) .f32 0x3DB504F3#32)))))
    (broadcast S256x2048 (Named.named (F := Ideal) κ "neg_big" (φ := .f32) 0xFF333332#32))

set_option maxRecDepth 65536 in
/-- The exponentials' payload is the exponential of the masked scores less their row maxima. -/
theorem pay3_eq (i : grid0.Coords) (x0 : Vec Ideal S1x1x256x128 .bf16) (x1 : Vec Ideal S1x1x2048x128 .bf16) :
    k0_pay3 (F := Ideal) i x0 x1
      = exp (subf (maskedBlk i x0 x1)
          (broadcastTo S256x2048 (shapeCast S256x1 (multiReduction .maximumf [1] S256 (maskedBlk i x0 x1) 0xFF800000#32
            reduces_S256x2048_S256 (.inl rfl) rfl) shapeCasts_S256_S256x1) broadcasts_S256x1_S256x2048)) := rfl

set_option maxRecDepth 65536 in
/-- The denominators' payload is the row sums of the exponentials, broadcast back. -/
theorem pay4_eq (i : grid0.Coords) (x0 : Vec Ideal S1x1x256x128 .bf16) (x1 : Vec Ideal S1x1x2048x128 .bf16) :
    k0_pay4 (F := Ideal) i x0 x1
      = broadcastTo S256x2048 (shapeCast S256x1 (multiReduction .add [1] S256 (k0_pay3 (F := Ideal) i x0 x1) 0x00000000#32
            reduces_S256x2048_S256 (.inl rfl) rfl) shapeCasts_S256_S256x1) broadcasts_S256x1_S256x2048 := rfl

set_option maxRecDepth 65536 in
/-- The stored payload: the clipped weights times the values, with the block's unit axes added back. -/
theorem pay1_eq (v5 : FVec Ideal S2048x128 .bf16) (v33 v36 : FVec Ideal S256x2048 .f32) :
    k0_pay1 (F := Ideal) v5 v33 v36
      = shapeCast S1x1x256x128
          (matmul dot_S256x2048_S2048x128_S256x128_1_0_0_1_n_n none
            (truncf .bf16
              (minimumf (φ := .f32) (broadcast S256x2048 (Scalar.ofBits (F := Ideal) .f32 0x3F800000#32))
                (maximumf (broadcast S256x2048 (Scalar.ofBits (F := Ideal) .f32 0x00000000#32))
                  (addf (mulf (broadcast S256x2048 (Scalar.ofBits (F := Ideal) .f32 0x3F87AE14#32)) (divf v33 v36))
                    (broadcast S256x2048 (Scalar.ofBits (F := Ideal) .f32 0xBCF5C28F#32)))))
              bitsLt_bf16_f32)
            v5 (constant S256x128 .f32 0x00000000#32))
          shapeCasts_S256x128_S1x1x256x128 := rfl

variable (i : grid0.Coords) (x0 : Vec Ideal S1x1x256x128 .bf16) (x1 x2 : Vec Ideal S1x1x2048x128 .bf16)

/-- The raw score of row r against key k. -/
theorem score_at (r : Fin 256) (k : Fin 2048) :
    scoreBlk x0 x1 (ix2 r k) = ∑ e : Fin 128, x0 (ix4 (0 : Fin 1) (0 : Fin 1) r e) * x1 (ix4 (0 : Fin 1) (0 : Fin 1) k e) := by
  unfold scoreBlk
  refine (KOps.scores_at _ _ r k).trans ?_
  refine Finset.sum_congr rfl fun e _ => ?_
  exact congrArg₂ (· * ·) (KOps.dropUnits_at x0 _ r e) ((KOps.keysT_at _ e k).trans (KOps.dropUnits_at x1 _ k e))

/-- The mask at (r, k) is the visibility of key k from the row's position. -/
theorem mask_at (r : Fin 256) (k : Fin 2048) : maskBlk i (ix2 r k) = Cert.Attn.allowed (qposK i r) k := by
  unfold maskBlk Cert.Attn.allowed qposK
  refine congrArg₂ IntOp.andi (congrArg₂ (IntOp.cmpi .sle) (KOps.keypos_at r k) ?_) (congrArg₂ (IntOp.cmpi .sge) (KOps.keypos_at r k) ?_)
  · refine (KOps.icolumn_at _ r k).trans ?_
    exact congrArg (IntOp.addi (Scalar.muli (BitVec.ofNat 32 (i 2).val) 256#32)) (KOps.rowpos_at r)
  · refine (KOps.icolumn_at _ r k).trans ?_
    exact congrArg (fun x => IntOp.subi (IntOp.addi (Scalar.muli (BitVec.ofNat 32 (i 2).val) 256#32) x) 1024#32) (KOps.rowpos_at r)

/-- The masked capped score at (r, k). -/
theorem masked_at (r : Fin 256) (k : Fin 2048) :
    maskedBlk i x0 x1 (ix2 r k)
      = Cert.Attn.masked (qposK i r) (fun k => ∑ e : Fin 128, x0 (ix4 (0 : Fin 1) (0 : Fin 1) r e) * x1 (ix4 (0 : Fin 1) (0 : Fin 1) k e)) k := by
  unfold maskedBlk Cert.Attn.masked Cert.Attn.capped
  show Scalar.select (maskBlk i (ix2 r k))
      (Ideal.ofBits .f32 0x41F00000#32 * Ideal.tanh (scoreBlk x0 x1 (ix2 r k) * Ideal.ofBits .f32 0x3DB504F3#32))
      (Named.named (F := Ideal) κ "neg_big" (φ := .f32) 0xFF333332#32) = _
  rw [mask_at, score_at, neg_big_eq]

/-- The exponential at (r, k). -/
theorem pay3_at (r : Fin 256) (k : Fin 2048) :
    k0_pay3 (F := Ideal) i x0 x1 (ix2 r k)
      = Cert.Attn.expo (qposK i r) (fun k => ∑ e : Fin 128, x0 (ix4 (0 : Fin 1) (0 : Fin 1) r e) * x1 (ix4 (0 : Fin 1) (0 : Fin 1) k e)) k := by
  rw [pay3_eq]
  unfold Cert.Attn.expo Cert.Attn.rowMax
  refine congrArg Ideal.exp (congrArg₂ (· - ·) (masked_at i x0 x1 r k) ((KOps.rowmax_at _ _ _ r k).trans ?_))
  exact congrArg (fun g => Finset.fold max ⊥ g (Finset.univ : Finset (Fin 2048))) (funext fun k' => masked_at i x0 x1 r k')

/-- The denominator at (r, k): the row's sum. -/
theorem pay4_at (r : Fin 256) (k : Fin 2048) :
    k0_pay4 (F := Ideal) i x0 x1 (ix2 r k)
      = Cert.Attn.denom (qposK i r) (fun k => ∑ e : Fin 128, x0 (ix4 (0 : Fin 1) (0 : Fin 1) r e) * x1 (ix4 (0 : Fin 1) (0 : Fin 1) k e)) := by
  rw [pay4_eq]
  unfold Cert.Attn.denom
  exact (KOps.rowsum_at _ _ _ r k).trans (Finset.sum_congr rfl fun k' _ => pay3_at i x0 x1 r k')

/-- THE STORED BLOCK at (0, 0, r, d): the row's clipped attention against column d of the values. -/
theorem payload_at (r : Fin 256) (d : Fin 128) :
    k0_pay1 (F := Ideal) (k0_pay2 (F := Ideal) x2) (k0_pay3 (F := Ideal) i x0 x1) (k0_pay4 (F := Ideal) i x0 x1) (ix4 (0 : Fin 1) (0 : Fin 1) r d)
      = Cert.Attn.rowOut (qposK i r) (fun k => ∑ e : Fin 128, x0 (ix4 (0 : Fin 1) (0 : Fin 1) r e) * x1 (ix4 (0 : Fin 1) (0 : Fin 1) k e))
          (fun k => x2 (ix4 (0 : Fin 1) (0 : Fin 1) k d)) := by
  rw [pay1_eq]
  unfold Cert.Attn.rowOut Cert.Attn.weight
  refine (KOps.addUnits_at _ _ r d).trans ((KOps.mix_at _ _ r d).trans (Finset.sum_congr rfl fun k _ => ?_))
  refine congrArg₂ (· * ·) ?_ (KOps.dropUnits_at x2 _ k d)
  show Cert.Attn.clipw (Ideal.div (k0_pay3 (F := Ideal) i x0 x1 (ix2 r k)) (k0_pay4 (F := Ideal) i x0 x1 (ix2 r k))) = _
  rw [pay3_at, pay4_at]

end Cert.KernelIdeal.KPay

end
-- ==== Proof.KBlocks.lean ====
/-
  From the blocks the grid points write back to the whole output array of the kernel's region.

  The grid has 2 · 16 · 8 = 256 points; point t is batch t / 128, query head t / 8 mod 16 and query block t mod 8.
  There the query window stages rows (t mod 8) · 256 … + 255 of head (t / 8 mod 16) of the transposed queries, the key and
  value windows stage all 2048 rows of kv-head (t / 8 mod 16) / 4, and the output window writes back the same rows of the
  same head as the query window reads. The transposed arrays are the arguments with the position and head axes swapped
  (the change of float format is the identity on extended reals).

  So the block point t writes back is the block of ONE function of the three arguments — entry (b, h, q, d) is
  `Attn.Gat` at (b, q, h, d) — and, the blocks covering the array, the array ends holding that function.
-/
import proofs.«164655_j35837207118659_2_alg».proof.Proof.FrameKI
import proofs.«164655_j35837207118659_2_alg».proof.Proof.KPay
import Idealize.ShloMosaic.Lib.Pipeline.Value
import Idealize.ShloMosaic.Lib.StableHlo.Run
import Idealize.ShloMosaic.Lib.Tactic

noncomputable section

namespace Cert.KernelIdeal.KBlocks

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The grid's index maps, decided over the 256 points -/

theorem idx_q : ∀ t : Fin cfg0.N, win0_0.index t (0 : Fin 4) = t.val / 128 ∧ win0_0.index t (1 : Fin 4) = t.val / 8 % 16
    ∧ win0_0.index t (2 : Fin 4) = t.val % 8 ∧ win0_0.index t (3 : Fin 4) = 0 :=
  (by decide +kernel : ∀ t : Fin grid0.N, _)

theorem idx_k : ∀ t : Fin cfg0.N, win0_1.index t (0 : Fin 4) = t.val / 128 ∧ win0_1.index t (1 : Fin 4) = t.val / 8 % 16 / 4
    ∧ win0_1.index t (2 : Fin 4) = 0 ∧ win0_1.index t (3 : Fin 4) = 0 :=
  (by decide +kernel : ∀ t : Fin grid0.N, _)

theorem idx_v : ∀ t : Fin cfg0.N, win0_2.index t (0 : Fin 4) = t.val / 128 ∧ win0_2.index t (1 : Fin 4) = t.val / 8 % 16 / 4
    ∧ win0_2.index t (2 : Fin 4) = 0 ∧ win0_2.index t (3 : Fin 4) = 0 :=
  (by decide +kernel : ∀ t : Fin grid0.N, _)

theorem idx_o : ∀ t : Fin cfg0.N, win0_3.index t (0 : Fin 4) = t.val / 128 ∧ win0_3.index t (1 : Fin 4) = t.val / 8 % 16
    ∧ win0_3.index t (2 : Fin 4) = t.val % 8 ∧ win0_3.index t (3 : Fin 4) = 0 :=
  (by decide +kernel : ∀ t : Fin grid0.N, _)

theorem coord_qb : ∀ t : Fin cfg0.N, (grid0.coords t (2 : Fin 3)).val = t.val % 8 :=
  (by decide +kernel : ∀ t : Fin grid0.N, _)

/-! ## The arrays the windows stage, as the region finds them -/

/-- The staged queries are the queries argument with the position and head axes swapped. -/
theorem V_q (c : Dev nD) : (V m c main_v1 : (⟨S2x16x2048x128, .bf16⟩ : BufTy).Contents (Elt Ideal))
    = ((truncf (F := Ideal) .bf16 · bitsLt_bf16_f32) : (⟨S2x16x2048x128, .f32⟩ : BufTy).Contents (Elt Ideal) → (⟨S2x16x2048x128, .bf16⟩ : BufTy).Contents (Elt Ideal))
        (((transpose S2x16x2048x128 [0, 2, 1, 3] · transposes_S2x2048x16x128_S2x16x2048x128_0_2_1_3) : (⟨S2x2048x16x128, .f32⟩ : BufTy).Contents (Elt Ideal) → (⟨S2x16x2048x128, .f32⟩ : BufTy).Contents (Elt Ideal))
          (m ((c : Thread nD τ).loc main_arg0))) := by
  show StableHlo.after hostOps0 (fun b => m (c, b)) (Proc.devRef .tc main_v1) = _
  after_results

/-- The staged keys likewise. -/
theorem V_k (c : Dev nD) : (V m c main_v3 : (⟨S2x4x2048x128, .bf16⟩ : BufTy).Contents (Elt Ideal))
    = ((truncf (F := Ideal) .bf16 · bitsLt_bf16_f32) : (⟨S2x4x2048x128, .f32⟩ : BufTy).Contents (Elt Ideal) → (⟨S2x4x2048x128, .bf16⟩ : BufTy).Contents (Elt Ideal))
        (((transpose S2x4x2048x128 [0, 2, 1, 3] · transposes_S2x2048x4x128_S2x4x2048x128_0_2_1_3) : (⟨S2x2048x4x128, .f32⟩ : BufTy).Contents (Elt Ideal) → (⟨S2x4x2048x128, .f32⟩ : BufTy).Contents (Elt Ideal))
          (m ((c : Thread nD τ).loc main_arg1))) := by
  show StableHlo.after hostOps0 (fun b => m (c, b)) (Proc.devRef .tc main_v3) = _
  after_results

/-- The staged values likewise. -/
theorem V_v (c : Dev nD) : (V m c main_v5 : (⟨S2x4x2048x128, .bf16⟩ : BufTy).Contents (Elt Ideal))
    = ((truncf (F := Ideal) .bf16 · bitsLt_bf16_f32) : (⟨S2x4x2048x128, .f32⟩ : BufTy).Contents (Elt Ideal) → (⟨S2x4x2048x128, .bf16⟩ : BufTy).Contents (Elt Ideal))
        (((transpose S2x4x2048x128 [0, 2, 1, 3] · transposes_S2x2048x4x128_S2x4x2048x128_0_2_1_3) : (⟨S2x2048x4x128, .f32⟩ : BufTy).Contents (Elt Ideal) → (⟨S2x4x2048x128, .f32⟩ : BufTy).Contents (Elt Ideal))
          (m ((c : Thread nD τ).loc main_arg2))) := by
  show StableHlo.after hostOps0 (fun b => m (c, b)) (Proc.devRef .tc main_v5) = _
  after_results

theorem q_at (c : Dev nD) (b : Fin 2) (h : Fin 16) (q : Fin 2048) (e : Fin 128) :
    (V m c main_v1 : (⟨S2x16x2048x128, .bf16⟩ : BufTy).Contents (Elt Ideal)) (ix4 b h q e)
      = (m ((c : Thread nD τ).loc main_arg0) : (⟨S2x2048x16x128, .f32⟩ : BufTy).Contents (Elt Ideal)) (ix4 b q h e) := by
  rw [V_q]
  exact transpose_apply [0, 2, 1, 3] _ transposes_S2x2048x16x128_S2x16x2048x128_0_2_1_3 (ix4 b h q e) (ix4 b q h e) (fun a => match a with
    | ⟨0, _⟩ => rfl
    | ⟨1, _⟩ => rfl
    | ⟨2, _⟩ => rfl
    | ⟨3, _⟩ => rfl)

theorem k_at (c : Dev nD) (b : Fin 2) (g : Fin 4) (k : Fin 2048) (e : Fin 128) :
    (V m c main_v3 : (⟨S2x4x2048x128, .bf16⟩ : BufTy).Contents (Elt Ideal)) (ix4 b g k e)
      = (m ((c : Thread nD τ).loc main_arg1) : (⟨S2x2048x4x128, .f32⟩ : BufTy).Contents (Elt Ideal)) (ix4 b k g e) := by
  rw [V_k]
  exact transpose_apply [0, 2, 1, 3] _ transposes_S2x2048x4x128_S2x4x2048x128_0_2_1_3 (ix4 b g k e) (ix4 b k g e) (fun a => match a with
    | ⟨0, _⟩ => rfl
    | ⟨1, _⟩ => rfl
    | ⟨2, _⟩ => rfl
    | ⟨3, _⟩ => rfl)

theorem v_at (c : Dev nD) (b : Fin 2) (g : Fin 4) (k : Fin 2048) (e : Fin 128) :
    (V m c main_v5 : (⟨S2x4x2048x128, .bf16⟩ : BufTy).Contents (Elt Ideal)) (ix4 b g k e)
      = (m ((c : Thread nD τ).loc main_arg2) : (⟨S2x2048x4x128, .f32⟩ : BufTy).Contents (Elt Ideal)) (ix4 b k g e) := by
  rw [V_v]
  exact transpose_apply [0, 2, 1, 3] _ transposes_S2x2048x4x128_S2x4x2048x128_0_2_1_3 (ix4 b g k e) (ix4 b k g e) (fun a => match a with
    | ⟨0, _⟩ => rfl
    | ⟨1, _⟩ => rfl
    | ⟨2, _⟩ => rfl
    | ⟨3, _⟩ => rfl)

/-! ## Each window's block at a point, read off its array -/

/-- Row r of the query block at point t is position (t mod 8) · 256 + r of head t / 8 mod 16 of batch t / 128. -/
theorem qblk_at (c : Dev nD) (t : Fin cfg0.N) (r : Fin 256) (e : Fin 128) (b : Fin 2) (h : Fin 16) (q : Fin 2048)
    (hb : b.val = t.val / 128) (hh : h.val = t.val / 8 % 16) (hq : q.val = t.val % 8 * 256 + r.val) :
    (iblk m c 0 t : Vec Ideal S1x1x256x128 .bf16) (ix4 (0 : Fin 1) (0 : Fin 1) r e)
      = (V m c main_v1 : (⟨S2x16x2048x128, .bf16⟩ : BufTy).Contents (Elt Ideal)) (ix4 b h q e) := by
  obtain ⟨i0, i1, i2, i3⟩ := idx_q t
  unfold iblk
  rw [View.read_apply]
  show (V m c main_v1 : (⟨S2x16x2048x128, .bf16⟩ : BufTy).Contents (Elt Ideal)) _ = _
  refine congrArg (V m c main_v1 : (⟨S2x16x2048x128, .bf16⟩ : BufTy).Contents (Elt Ideal)) ?_
  funext a; apply Fin.ext
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 256 + 1 * r.val = q.val; omega
  | ⟨3, _⟩ => show win0_0.index t (3 : Fin 4) * 128 + 1 * e.val = e.val; omega

/-- Row k of the key block at point t is position k of kv-head (t / 8 mod 16) / 4 of batch t / 128. -/
theorem kblk_at (c : Dev nD) (t : Fin cfg0.N) (k : Fin 2048) (e : Fin 128) (b : Fin 2) (g : Fin 4)
    (hb : b.val = t.val / 128) (hg : g.val = t.val / 8 % 16 / 4) :
    (iblk m c 1 t : Vec Ideal S1x1x2048x128 .bf16) (ix4 (0 : Fin 1) (0 : Fin 1) k e)
      = (V m c main_v3 : (⟨S2x4x2048x128, .bf16⟩ : BufTy).Contents (Elt Ideal)) (ix4 b g k e) := by
  obtain ⟨i0, i1, i2, i3⟩ := idx_k t
  unfold iblk
  rw [View.read_apply]
  show (V m c main_v3 : (⟨S2x4x2048x128, .bf16⟩ : BufTy).Contents (Elt Ideal)) _ = _
  refine congrArg (V m c main_v3 : (⟨S2x4x2048x128, .bf16⟩ : BufTy).Contents (Elt Ideal)) ?_
  funext a; apply Fin.ext
  match a with
  | ⟨0, _⟩ => show win0_1.index t (0 : Fin 4) * 1 + 1 * 0 = b.val; omega
  | ⟨1, _⟩ => show win0_1.index t (1 : Fin 4) * 1 + 1 * 0 = g.val; omega
  | ⟨2, _⟩ => show win0_1.index t (2 : Fin 4) * 2048 + 1 * k.val = k.val; omega
  | ⟨3, _⟩ => show win0_1.index t (3 : Fin 4) * 128 + 1 * e.val = e.val; omega

/-- The value block likewise. -/
theorem vblk_at (c : Dev nD) (t : Fin cfg0.N) (k : Fin 2048) (e : Fin 128) (b : Fin 2) (g : Fin 4)
    (hb : b.val = t.val / 128) (hg : g.val = t.val / 8 % 16 / 4) :
    (iblk m c 2 t : Vec Ideal S1x1x2048x128 .bf16) (ix4 (0 : Fin 1) (0 : Fin 1) k e)
      = (V m c main_v5 : (⟨S2x4x2048x128, .bf16⟩ : BufTy).Contents (Elt Ideal)) (ix4 b g k e) := by
  obtain ⟨i0, i1, i2, i3⟩ := idx_v t
  unfold iblk
  rw [View.read_apply]
  show (V m c main_v5 : (⟨S2x4x2048x128, .bf16⟩ : BufTy).Contents (Elt Ideal)) _ = _
  refine congrArg (V m c main_v5 : (⟨S2x4x2048x128, .bf16⟩ : BufTy).Contents (Elt Ideal)) ?_
  funext a; apply Fin.ext
  match a with
  | ⟨0, _⟩ => show win0_2.index t (0 : Fin 4) * 1 + 1 * 0 = b.val; omega
  | ⟨1, _⟩ => show win0_2.index t (1 : Fin 4) * 1 + 1 * 0 = g.val; omega
  | ⟨2, _⟩ => show win0_2.index t (2 : Fin 4) * 2048 + 1 * k.val = k.val; omega
  | ⟨3, _⟩ => show win0_2.index t (3 : Fin 4) * 128 + 1 * e.val = e.val; omega

/-! ## What a point writes back -/

/-- The region's result as one function of the three arguments, in the region's own layout (batch, head, position,
    feature). -/
def Gk (Q : (⟨S2x2048x16x128, .f32⟩ : BufTy).Contents (Elt Ideal)) (K W : (⟨S2x2048x4x128, .f32⟩ : BufTy).Contents (Elt Ideal)) :
    (⟨S2x16x2048x128, .f32⟩ : BufTy).Contents (Elt Ideal) :=
  fun j => Cert.Attn.Gat Q K W (j 0) (j 2) (j 1) (j 3)

/-- The body's position arithmetic in 32-bit integers is the position. -/
theorem qpos_eq (n r : Nat) :
    IntOp.addi (Scalar.muli (BitVec.ofNat 32 n) 256#32) (BitVec.ofNat 32 r) = BitVec.ofNat 32 (n * 256 + r) := by
  show BitVec.ofNat 32 n * 256#32 + BitVec.ofNat 32 r = _
  rw [show (256#32 : BitVec 32) = BitVec.ofNat 32 256 from rfl, ← BitVec.ofNat_mul, ← BitVec.ofNat_add]

/-- The stored payload at any entry of the block (its two leading coordinates are 0). -/
theorem payload_idx (i : grid0.Coords) (x0 : Vec Ideal S1x1x256x128 .bf16) (x1 x2 : Vec Ideal S1x1x2048x128 .bf16) (y : S1x1x256x128.Idx) :
    k0_pay1 (F := Ideal) (k0_pay2 (F := Ideal) x2) (k0_pay3 (F := Ideal) i x0 x1) (k0_pay4 (F := Ideal) i x0 x1) y
      = Cert.Attn.rowOut (KPay.qposK i (y 2))
          (fun k => ∑ e : Fin 128, x0 (ix4 (0 : Fin 1) (0 : Fin 1) (y 2) e) * x1 (ix4 (0 : Fin 1) (0 : Fin 1) k e))
          (fun k => x2 (ix4 (0 : Fin 1) (0 : Fin 1) k (y 3))) := by
  have hy : y = ix4 (0 : Fin 1) (0 : Fin 1) (y 2) (y 3) := by
    funext a; apply Fin.ext
    match a with
    | ⟨0, _⟩ => have h0 : (y 0).val < 1 := (y 0).isLt; show (y 0).val = 0; omega
    | ⟨1, _⟩ => have h1 : (y 1).val < 1 := (y 1).isLt; show (y 1).val = 0; omega
    | ⟨2, _⟩ => rfl
    | ⟨3, _⟩ => rfl
  exact (congrArg (k0_pay1 (F := Ideal) (k0_pay2 (F := Ideal) x2) (k0_pay3 (F := Ideal) i x0 x1) (k0_pay4 (F := Ideal) i x0 x1)) hy).trans
    (KPay.payload_at i x0 x1 x2 (y 2) (y 3))

/-- WHAT POINT t WRITES BACK is block t of `Gk` of the arguments. -/
theorem flushed_eq (c : Dev nD) (t : Fin cfg0.N) :
    (dats m 0 c).flushed 3 t = ((cfg0.win 3).blk t).view.read (Elt Ideal)
      (Gk (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S1x1x256x128) hz, View.ld_unit_zero (S := S1x1x2048x128) hz]
  funext y
  obtain ⟨o0, o1, o2, o3⟩ := idx_o t
  have hN : t.val < 256 := lt_of_lt_of_eq t.isLt N_0
  have hy2 : (y 2).val < 256 := (y 2).isLt
  have hy3 : (y 3).val < 128 := (y 3).isLt
  have hy0 : (y 0).val < 1 := (y 0).isLt
  have hy1 : (y 1).val < 1 := (y 1).isLt
  show k0_pay1 (F := Ideal) (k0_pay2 (F := Ideal) (iblk m c 2 t)) (k0_pay3 (F := Ideal) (grid0.coords t) (iblk m c 0 t) (iblk m c 1 t))
      (k0_pay4 (F := Ideal) (grid0.coords t) (iblk m c 0 t) (iblk m c 1 t)) y
    = Gk (m ((c : Thread nD τ).loc main_arg0)) (m ((c : Thread nD τ).loc main_arg1)) (m ((c : Thread nD τ).loc main_arg2))
        (((cfg0.win 3).blk t).view.emb y)
  refine (payload_idx (grid0.coords t) (iblk m c 0 t) (iblk m c 1 t) (iblk m c 2 t) y).trans ?_
  have hemb : ((cfg0.win 3).blk t).view.emb y
      = ix4 (⟨t.val / 128, by omega⟩ : Fin 2) (⟨t.val / 8 % 16, by omega⟩ : Fin 16) (⟨t.val % 8 * 256 + (y 2).val, by omega⟩ : Fin 2048)
          (⟨(y 3).val, hy3⟩ : Fin 128) := by
    funext a; apply Fin.ext
    match a with
    | ⟨0, _⟩ => show win0_3.index t (0 : Fin 4) * 1 + 1 * (y 0).val = t.val / 128; omega
    | ⟨1, _⟩ => show win0_3.index t (1 : Fin 4) * 1 + 1 * (y 1).val = t.val / 8 % 16; omega
    | ⟨2, _⟩ => show win0_3.index t (2 : Fin 4) * 256 + 1 * (y 2).val = t.val % 8 * 256 + (y 2).val; omega
    | ⟨3, _⟩ => show win0_3.index t (3 : Fin 4) * 128 + 1 * (y 3).val = (y 3).val; omega
  rw [hemb]
  show _ = Cert.Attn.Gat _ _ _ (⟨t.val / 128, by omega⟩ : Fin 2) (⟨t.val % 8 * 256 + (y 2).val, by omega⟩ : Fin 2048) (⟨t.val / 8 % 16, by omega⟩ : Fin 16)
    (⟨(y 3).val, hy3⟩ : Fin 128)
  unfold Cert.Attn.Gat
  have hqp : KPay.qposK (grid0.coords t) (y 2) = BitVec.ofNat 32 (t.val % 8 * 256 + (y 2).val) := by
    unfold KPay.qposK
    rw [coord_qb t]
    exact qpos_eq _ _
  refine congr (congr (congrArg Cert.Attn.rowOut hqp) (funext fun k => ?_)) (funext fun k => ?_)
  · exact Finset.sum_congr rfl fun e _ => congrArg₂ (· * ·)
      ((qblk_at m c t (y 2) e _ _ _ rfl rfl rfl).trans (q_at m c _ _ _ e))
      ((kblk_at m c t k e _ (Cert.Attn.kvh ⟨t.val / 8 % 16, by omega⟩) rfl rfl).trans (k_at m c _ _ k e))
  · exact (vblk_at m c t k (y 3) _ (Cert.Attn.kvh ⟨t.val / 8 % 16, by omega⟩) rfl rfl).trans (v_at m c _ _ k _)

/-! ## The blocks cover the array -/

/-- An index of the array is in point t's block iff each coordinate is in the block's range on its axis. -/
theorem mem_blk (t : Fin cfg0.N) (i : S2x16x2048x128.Idx) :
    i ∈ ((cfg0.win 3).blk t).view.set ↔ ∀ a : Fin 4, win0_3.index t a * S1x1x256x128.size a ≤ (i a).val
      ∧ (i a).val < win0_3.index t a * S1x1x256x128.size a + S1x1x256x128.size a := by
  show i ∈ ((View.whole main_v6).slice (win0_3.rect t)).set ↔ _
  rw [View.set_slice_whole, Rect.mem_set_unit]
  exact Iff.rfl

/-- Entry (b, h, q, d) lies in the block of the point (b · 16 + h) · 8 + q / 256. -/
theorem cover (i : S2x16x2048x128.Idx) :
    ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 2048 := (i 2).isLt
  have h3 : (i 3).val < 128 := (i 3).isLt
  have hN : cfg0.N = 256 := N_0
  have hlt : ((i 0).val * 16 + (i 1).val) * 8 + (i 2).val / 256 < cfg0.N := by rw [hN]; omega
  refine ⟨⟨((i 0).val * 16 + (i 1).val) * 8 + (i 2).val / 256, hlt⟩, flush0_3 _, ?_⟩
  rw [mem_blk]
  obtain ⟨o0, o1, o2, o3⟩ := idx_o ⟨((i 0).val * 16 + (i 1).val) * 8 + (i 2).val / 256, hlt⟩
  intro a
  match a with
  | ⟨0, _⟩ =>
    show win0_3.index ⟨((i 0).val * 16 + (i 1).val) * 8 + (i 2).val / 256, hlt⟩ (0 : Fin 4) * 1 ≤ (i 0).val
      ∧ (i 0).val < win0_3.index ⟨((i 0).val * 16 + (i 1).val) * 8 + (i 2).val / 256, hlt⟩ (0 : Fin 4) * 1 + 1
    rw [o0]; show (((i 0).val * 16 + (i 1).val) * 8 + (i 2).val / 256) / 128 * 1 ≤ _ ∧ _ < (((i 0).val * 16 + (i 1).val) * 8 + (i 2).val / 256) / 128 * 1 + 1; omega
  | ⟨1, _⟩ =>
    show win0_3.index ⟨((i 0).val * 16 + (i 1).val) * 8 + (i 2).val / 256, hlt⟩ (1 : Fin 4) * 1 ≤ (i 1).val
      ∧ (i 1).val < win0_3.index ⟨((i 0).val * 16 + (i 1).val) * 8 + (i 2).val / 256, hlt⟩ (1 : Fin 4) * 1 + 1
    rw [o1]; show (((i 0).val * 16 + (i 1).val) * 8 + (i 2).val / 256) / 8 % 16 * 1 ≤ _ ∧ _ < (((i 0).val * 16 + (i 1).val) * 8 + (i 2).val / 256) / 8 % 16 * 1 + 1; omega
  | ⟨2, _⟩ =>
    show win0_3.index ⟨((i 0).val * 16 + (i 1).val) * 8 + (i 2).val / 256, hlt⟩ (2 : Fin 4) * 256 ≤ (i 2).val
      ∧ (i 2).val < win0_3.index ⟨((i 0).val * 16 + (i 1).val) * 8 + (i 2).val / 256, hlt⟩ (2 : Fin 4) * 256 + 256
    rw [o2]; show (((i 0).val * 16 + (i 1).val) * 8 + (i 2).val / 256) % 8 * 256 ≤ _ ∧ _ < (((i 0).val * 16 + (i 1).val) * 8 + (i 2).val / 256) % 8 * 256 + 256; omega
  | ⟨3, _⟩ =>
    show win0_3.index ⟨((i 0).val * 16 + (i 1).val) * 8 + (i 2).val / 256, hlt⟩ (3 : Fin 4) * 128 ≤ (i 3).val
      ∧ (i 3).val < win0_3.index ⟨((i 0).val * 16 + (i 1).val) * 8 + (i 2).val / 256, hlt⟩ (3 : Fin 4) * 128 + 128
    rw [o3]; omega

/-- THE ARRAY after the region: `Gk` of the arguments. -/
theorem final (c : Dev nD) : (dats m 0 c).arrAt 3 cfg0.N
    = Gk (m ((c : Thread nD τ).loc main_arg0)) (m ((c : Thread nD τ).loc main_arg1)) (m ((c : Thread nD τ).loc main_arg2)) :=
  (dats m 0 c).arrAt_eq_of_cover 3 _ (fun t _ => flushed_eq m c t) cover

end Cert.KernelIdeal.KBlocks

end
-- ==== Proof.KRun.lean ====
/-
  The idealized kernel's whole run, read: the one host operation after the region swaps the position and head axes of
  the region's array back, so the program's result is `Attn.G` of the three arguments, in the arguments' layout; the
  arguments end unchanged.
-/
import proofs.«164655_j35837207118659_2_alg».proof.Proof.KBlocks

noncomputable section

namespace Cert.KernelIdeal.KRun

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result buffer after the host line that follows the region: entry (b, q, h, d) is the region's entry (b, h, q, d). -/
theorem result_eq (c : Dev nD) :
    Pipeline.afterTail₀ cfgs (dats m) 0 (V0 m) [hostOps1] c main_v7
      = Cert.Attn.G (m ((c : Thread nD τ).loc main_arg0)) (m ((c : Thread nD τ).loc main_arg1)) (m ((c : Thread nD τ).loc main_arg2)) := by
  unfold Pipeline.afterTail₀
  show StableHlo.after hostOps1 _ (Proc.devRef .tc main_v7) = _
  after_results
  rw [(Pipeline.withArrays_arr spec0 launch0.win.arr_inj c _ _ 3).trans (KBlocks.final m c)]
  funext j
  refine (transpose_apply [0, 2, 1, 3] _ transposes_S2x16x2048x128_S2x2048x16x128_0_2_1_3 j
    (ix4 (j 0) (j 2) (j 1) (j 3)) (fun a => match a with
      | ⟨0, _⟩ => rfl
      | ⟨1, _⟩ => rfl
      | ⟨2, _⟩ => rfl
      | ⟨3, _⟩ => rfl)).trans ?_
  rfl

/-- Every weakly fair execution of the idealized kernel's program terminates with the result at `Attn.G` of the
    arguments and the arguments unchanged. -/
theorem run : θ_run defs (onTc (τ := τ) (main (F := Ideal))) ⟨m, fun _ => 0, ρ⟩ fun r => ∀ c : Dev nD,
      r.2.mem ((c.tc : Thread nD τ).loc main_v7)
        = Cert.Attn.G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v7 (Pipeline.mem_restRefs_of main_v7 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KRun

end
-- ==== Proof.RefIsG.lean ====
import proofs.«164655_j35837207118659_2_alg».proof.Proof.Attn
import proofs.«164655_j35837207118659_2_alg».proof.Proof.Gen.ReferenceIdeal.Read

/-!
  The reference program, read at the ideal instance, computes the attention specification `Cert.Attn.G`.

  Each stage of the program is read at an index given by explicit coordinates (batch b, head h, query q, key k,
  feature d), innermost stage first:
    keys and values repeated along the head axis: head h reads kv-head h / 4;
    the raw scores are the sums over the feature axis;
    the additive mask is 0 where the key is visible and −∞ elsewhere, so adding it is selecting;
    the row maximum, the shifted exponentials, their sum, the normalised, scaled and clipped weights;
    the weights against one column of the values.
-/

noncomputable section

namespace Cert.RefIsG

open Cert.ReferenceIdeal Cert.ReferenceIdeal.Read Idealize.ShloMosaic Idealize.ShloMosaic.ValueIdx

/-- The queries' (and the result's) array type and the keys' / values' array type, at the ideal instance. -/
abbrev QT := (⟨S2x2048x16x128, .f32⟩ : BufTy).Contents (Elt Ideal)
abbrev KT := (⟨S2x2048x4x128, .f32⟩ : BufTy).Contents (Elt Ideal)

/-! ## Keys and values repeated along the head axis -/

/-- The flat position of (b, k, h, d) in the [2, 2048, 16, 128] array, re-split over [2, 2048, 4, 4, 128] and
    with the repeat axis dropped, is (b, k, h / 4, d). -/
theorem repeat_idx (b : Fin 2) (k : Fin 2048) (h : Fin 16) (d : Fin 128) :
    idx_main_v0 (idx_main_v1 (ix4 b k h d)) = ix4 b k (Cert.Attn.kvh h) d := by
  have hb := b.isLt; have hk := k.isLt; have hh := h.isLt; have hd := d.isLt
  funext a
  apply Fin.ext
  match a with
  | ⟨0, _⟩ => show (((b.val * 2048 + k.val) * 16 + h.val) * 128 + d.val) / 4194304 = b.val; omega
  | ⟨1, _⟩ => show (((b.val * 2048 + k.val) * 16 + h.val) * 128 + d.val) / 2048 % 2048 = k.val; omega
  | ⟨2, _⟩ => show (((b.val * 2048 + k.val) * 16 + h.val) * 128 + d.val) / 512 % 4 = h.val / 4; omega
  | ⟨3, _⟩ => show (((b.val * 2048 + k.val) * 16 + h.val) * 128 + d.val) % 128 = d.val; omega

/-- The repeated keys at (b, k, h, d) are the keys of kv-head h / 4. -/
theorem v1_at (x1 : KT) (b : Fin 2) (k : Fin 2048) (h : Fin 16) (d : Fin 128) :
    val_main_v1 (F := Ideal) x1 (ix4 b k h d) = x1 (ix4 b k (Cert.Attn.kvh h) d) := by
  rw [val_main_v1_apply, val_main_v0_apply]
  exact congrArg x1 (repeat_idx b k h d)

/-- The repeated values at (b, k, h, d) are the values of kv-head h / 4. -/
theorem v3_at (x2 : KT) (b : Fin 2) (k : Fin 2048) (h : Fin 16) (d : Fin 128) :
    val_main_v3 (F := Ideal) x2 (ix4 b k h d) = x2 (ix4 b k (Cert.Attn.kvh h) d) := by
  rw [val_main_v3_apply, val_main_v2_apply]
  exact congrArg x2 (repeat_idx b k h d)

/-- Swapping the two middle axes of (b, h, k, d) gives (b, k, h, d). -/
theorem swap_idx (b : Fin 2) (h : Fin 16) (k : Fin 2048) (d : Fin 128) :
    idx_main_v5 (ix4 b h k d) = ix4 b k h d := by
  funext a
  match a with
  | ⟨0, _⟩ => rfl
  | ⟨1, _⟩ => rfl
  | ⟨2, _⟩ => rfl
  | ⟨3, _⟩ => rfl

theorem v4_at (x0 : QT) (b : Fin 2) (h : Fin 16) (q : Fin 2048) (d : Fin 128) :
    val_main_v4 (F := Ideal) x0 (ix4 b h q d) = x0 (ix4 b q h d) := by
  rw [val_main_v4_apply]
  exact congrArg x0 (swap_idx b h q d)

theorem v5_at (x1 : KT) (b : Fin 2) (h : Fin 16) (k : Fin 2048) (d : Fin 128) :
    val_main_v5 (F := Ideal) x1 (ix4 b h k d) = x1 (ix4 b k (Cert.Attn.kvh h) d) := by
  rw [val_main_v5_apply]
  exact (congrArg (val_main_v1 (F := Ideal) x1) (swap_idx b h k d)).trans (v1_at x1 b k h d)

theorem v6_at (x2 : KT) (b : Fin 2) (h : Fin 16) (k : Fin 2048) (d : Fin 128) :
    val_main_v6 (F := Ideal) x2 (ix4 b h k d) = x2 (ix4 b k (Cert.Attn.kvh h) d) := by
  rw [val_main_v6_apply]
  exact (congrArg (val_main_v3 (F := Ideal) x2) (swap_idx b h k d)).trans (v3_at x2 b k h d)

/-! ## The raw scores -/

theorem v7_at (x0 : QT) (x1 : KT) (b : Fin 2) (h : Fin 16) (q k : Fin 2048) :
    val_main_v7 (F := Ideal) x0 x1 (ix4 b h q k) = Cert.Attn.score x0 x1 b q h k := by
  rw [val_main_v7_apply]
  unfold Cert.Attn.score
  refine Finset.sum_congr rfl fun d _ => ?_
  have el : lidx_main_v7 (ix4 b h q k) d = ix4 b h q d := by
    funext a
    match a with
    | ⟨0, _⟩ => rfl
    | ⟨1, _⟩ => rfl
    | ⟨2, _⟩ => rfl
    | ⟨3, _⟩ => rfl
  have er : ridx_main_v7 (ix4 b h q k) d = ix4 b h k d := by
    funext a
    match a with
    | ⟨0, _⟩ => rfl
    | ⟨1, _⟩ => rfl
    | ⟨2, _⟩ => rfl
    | ⟨3, _⟩ => rfl
  rw [el, er, v4_at, v5_at]

/-! ## The mask and the masked scores -/

/-- The additive mask at (b, h, q, k): the zero word where key k is visible from query q, the −∞ word elsewhere. -/
theorem v29_at (b : Fin 2) (h : Fin 16) (q k : Fin 2048) :
    val_main_v29 (F := Ideal) (ix4 b h q k)
      = Scalar.select (Cert.Attn.allowed (BitVec.ofNat 32 q.val) k)
          (Ideal.ofBits .f32 0x00000000#32) (Ideal.ofBits .f32 0xFF800000#32) := by
  rw [val_main_v29_apply, val_main_v28_apply, val_main_v22_apply, val_main_v21_apply, val_main_v20_apply,
    val_main_v14_apply, val_main_v19_apply, val_main_v12_apply, val_main_v13_apply, val_main_v17_apply,
    val_main_v18_apply, val_main_v16_apply, val_main_v11_apply, val_main_v9_apply, val_main_v15_apply,
    val_main_v10_apply, val_main_v8_apply, val_main_c_apply, val_main_call0_v0_apply, val_main_call0_v1_apply,
    val_main_cst_apply, val_main_cst_0_apply]
  rfl

/-- The masked capped score at (b, h, q, k). -/
theorem v30_at (x0 : QT) (x1 : KT) (b : Fin 2) (h : Fin 16) (q k : Fin 2048) :
    val_main_v30 (F := Ideal) x0 x1 (ix4 b h q k)
      = Cert.Attn.masked (BitVec.ofNat 32 q.val) (Cert.Attn.score x0 x1 b q h) k := by
  rw [val_main_v30_apply, val_main_v27_apply, val_main_v26_apply, val_main_cst_2_apply, val_main_v25_apply,
    val_main_v24_apply, val_main_v23_apply, val_main_cst_1_apply, v7_at, v29_at]
  exact Cert.Attn.add_mask_eq_select _ _

/-! ## The row maximum -/

/-- The reduced index (b, h, q) with key k put back on the last axis is (b, h, q, k). -/
theorem lift_ix3 (hr : S2x16x2048x2048.Reduces [3] S2x16x2048) (b : Fin 2) (h : Fin 16) (q : Fin 2048)
    (k : Fin (S2x16x2048x2048.size 3)) :
    hr.lift (ix3 b h q) k = ix4 b h q (⟨k.val, k.isLt⟩ : Fin 2048) := by
  funext c; apply Fin.ext
  fin_cases c <;> rfl

/-- The maximum over the keys of the masked scores of row (b, h, q), folded from −∞. -/
theorem v31_at (x0 : QT) (x1 : KT) (b : Fin 2) (h : Fin 16) (q : Fin 2048) :
    val_main_v31 (F := Ideal) x0 x1 (ix3 b h q)
      = Cert.Attn.rowMax (BitVec.ofNat 32 q.val) (Cert.Attn.score x0 x1 b q h) := by
  have hr : S2x16x2048x2048.Reduces [3] S2x16x2048 := by decide
  unfold val_main_v31
  rw [Host.reduce_eq_fold_single FloatOps.maximumf _ _ _ hr]
  have hf : (val_main_v30 (F := Ideal) x0 x1 ∘ hr.lift (ix3 b h q))
      = Cert.Attn.masked (BitVec.ofNat 32 q.val) (Cert.Attn.score x0 x1 b q h) :=
    funext fun k => (congrArg (val_main_v30 (F := Ideal) x0 x1) (lift_ix3 hr b h q k)).trans
      (v30_at x0 x1 b h q ⟨k.val, k.isLt⟩)
  rw [hf, val_main_cst_3_apply, Ideal.ofBits_def, Cert.Attn.ofBits_neg_inf]
  rfl

/-- The program takes the maximum with −∞ once more, which changes nothing. -/
theorem v33_at (x0 : QT) (x1 : KT) (b : Fin 2) (h : Fin 16) (q : Fin 2048) :
    val_main_v33 (F := Ideal) x0 x1 (ix3 b h q)
      = Cert.Attn.rowMax (BitVec.ofNat 32 q.val) (Cert.Attn.score x0 x1 b q h) := by
  rw [val_main_v33_apply, val_main_v32_apply, val_main_cst_4_apply, v31_at, Ideal.ofBits_def, Ideal.maximumf_def]
  exact Cert.Attn.max_bot_left _

/-! ## The shifted exponentials and their sum -/

/-- The row maximum, spread back over the keys. -/
theorem v35_at (x0 : QT) (x1 : KT) (b : Fin 2) (h : Fin 16) (q k : Fin 2048) :
    val_main_v35 (F := Ideal) x0 x1 (ix4 b h q k)
      = Cert.Attn.rowMax (BitVec.ofNat 32 q.val) (Cert.Attn.score x0 x1 b q h) := by
  rw [val_main_v35_apply, val_main_v34_apply]
  have e : idx_main_v34 (idx_main_v35 (ix4 b h q k)) = ix3 b h q := by
    funext a
    match a with
    | ⟨0, _⟩ => rfl
    | ⟨1, _⟩ => rfl
    | ⟨2, _⟩ => rfl
  rw [e, v33_at]

theorem v37_at (x0 : QT) (x1 : KT) (b : Fin 2) (h : Fin 16) (q k : Fin 2048) :
    val_main_v37 (F := Ideal) x0 x1 (ix4 b h q k)
      = Cert.Attn.expo (BitVec.ofNat 32 q.val) (Cert.Attn.score x0 x1 b q h) k := by
  rw [val_main_v37_apply, val_main_v36_apply, v30_at, v35_at]
  rfl

/-- The sum of the exponentials of row (b, h, q); the sum starts from the zero word, which is 0. -/
theorem v38_at (x0 : QT) (x1 : KT) (b : Fin 2) (h : Fin 16) (q : Fin 2048) :
    val_main_v38 (F := Ideal) x0 x1 (ix3 b h q)
      = Cert.Attn.denom (BitVec.ofNat 32 q.val) (Cert.Attn.score x0 x1 b q h) := by
  rw [val_main_v38_apply, val_main_cst_5_apply, Ideal.ofBits_def, Ideal.ofBits_zero_f32, zero_add]
  unfold Cert.Attn.denom
  refine Finset.sum_congr rfl fun k _ => ?_
  have e : idx_main_v38 (ix3 b h q) k = ix4 b h q k := by
    funext a
    match a with
    | ⟨0, _⟩ => rfl
    | ⟨1, _⟩ => rfl
    | ⟨2, _⟩ => rfl
    | ⟨3, _⟩ => rfl
  rw [e, v37_at]

/-- The sum, spread back over the keys. -/
theorem v40_at (x0 : QT) (x1 : KT) (b : Fin 2) (h : Fin 16) (q k : Fin 2048) :
    val_main_v40 (F := Ideal) x0 x1 (ix4 b h q k)
      = Cert.Attn.denom (BitVec.ofNat 32 q.val) (Cert.Attn.score x0 x1 b q h) := by
  rw [val_main_v40_apply, val_main_v39_apply]
  have e : idx_main_v39 (idx_main_v40 (ix4 b h q k)) = ix3 b h q := by
    funext a
    match a with
    | ⟨0, _⟩ => rfl
    | ⟨1, _⟩ => rfl
    | ⟨2, _⟩ => rfl
  rw [e, v38_at]

/-! ## The clipped weights -/

theorem v46_at (x0 : QT) (x1 : KT) (b : Fin 2) (h : Fin 16) (q k : Fin 2048) :
    val_main_v46 (F := Ideal) x0 x1 (ix4 b h q k)
      = Cert.Attn.weight (BitVec.ofNat 32 q.val) (Cert.Attn.score x0 x1 b q h) k := by
  rw [val_main_v46_apply, val_main_call1_v4_apply, val_main_call1_v3_apply, val_main_cst_9_apply,
    val_main_call1_v2_apply, val_main_call1_v1_apply, val_main_call1_v0_apply, val_main_cst_8_apply,
    val_main_v45_apply, val_main_v44_apply, val_main_cst_7_apply, val_main_v43_apply, val_main_v42_apply,
    val_main_cst_6_apply, val_main_v41_apply, v37_at, v40_at]
  rfl

/-! ## The weights against the values -/

theorem v47_at (x0 : QT) (x1 x2 : KT) (b : Fin 2) (h : Fin 16) (q : Fin 2048) (d : Fin 128) :
    val_main_v47 (F := Ideal) x0 x1 x2 (ix4 b h q d) = Cert.Attn.Gat x0 x1 x2 b q h d := by
  rw [val_main_v47_apply]
  unfold Cert.Attn.Gat Cert.Attn.rowOut
  refine Finset.sum_congr rfl fun k _ => ?_
  have el : lidx_main_v47 (ix4 b h q d) k = ix4 b h q k := by
    funext a
    match a with
    | ⟨0, _⟩ => rfl
    | ⟨1, _⟩ => rfl
    | ⟨2, _⟩ => rfl
    | ⟨3, _⟩ => rfl
  have er : ridx_main_v47 (ix4 b h q d) k = ix4 b h k d := by
    funext a
    match a with
    | ⟨0, _⟩ => rfl
    | ⟨1, _⟩ => rfl
    | ⟨2, _⟩ => rfl
    | ⟨3, _⟩ => rfl
  rw [el, er, v46_at, v6_at]

/-- The result at explicit coordinates. -/
theorem ref_at (x0 : QT) (x1 x2 : KT) (b : Fin 2) (q : Fin 2048) (h : Fin 16) (d : Fin 128) :
    val_main_v48 (F := Ideal) x0 x1 x2 (ix4 b q h d) = Cert.Attn.G x0 x1 x2 (ix4 b q h d) := by
  rw [val_main_v48_apply, Cert.Attn.G_ix4]
  have e : idx_main_v48 (ix4 b q h d) = ix4 b h q d := by
    funext a
    match a with
    | ⟨0, _⟩ => rfl
    | ⟨1, _⟩ => rfl
    | ⟨2, _⟩ => rfl
    | ⟨3, _⟩ => rfl
  rw [e, v47_at]

/-- The reference program's result, read at the ideal instance, is the specification. -/
theorem ref_is_G (x0 : (⟨S2x2048x16x128, .f32⟩ : BufTy).Contents (Elt Ideal)) (x1 x2 : (⟨S2x2048x4x128, .f32⟩ : BufTy).Contents (Elt Ideal)) :
    val_main_v48 (F := Ideal) x0 x1 x2 = Cert.Attn.G x0 x1 x2 := by
  funext j
  have e := eq_ix4 j
  exact (congrArg (val_main_v48 (F := Ideal) x0 x1 x2) e).trans
    ((ref_at x0 x1 x2 (j 0) (j 1) (j 2) (j 3)).trans (congrArg (Cert.Attn.G x0 x1 x2) e).symm)

end Cert.RefIsG

end
-- ==== Proof.lean ====
/-
  Sliding-window attention with capped scores and clipped weights: the kernel against its jnp reference, on the extended
  reals.

  Both programs compute, for batch b, position q, query head h and feature d,
      ∑ₖ clip (1.06 · softmaxₖ (mask (30 · tanh (scale · ⟨Q[b,q,h,·], K[b,k,h/4,·]⟩))) − 0.03) · V[b,k,h/4,d],
  the mask letting key k through when q − 1024 ≤ k ≤ q (`Attn.G`, Proof/Attn.lean). The kernel tiles the positions in
  blocks of 256 per grid point and keeps a head's whole key and value sequences resident; it fills the masked scores
  with a finite stand-in that the idealization names −∞; the reference adds a mask of 0 and −∞ to the scores. On the
  extended reals adding that mask is selecting (x + 0 = x, x + −∞ = −∞), a row maximum or sum is the same in any order or
  tiling, a product into a zero accumulator is the sum of the products, and a change of float format is the identity:
  the two results are one function of the arguments, index by index. No step uses the finiteness of the inputs.

  Proof/KOps.lean, KPay.lean, KBlocks.lean and KRun.lean read the kernel's result off its frame run, Proof/RefIsG.lean reads
  the reference's run. The two kernel frames are the generated frame certificates, in the copies Proof/FrameK.lean and
  Proof/FrameKI.lean that bind the grid position the stored value reads; the reference's frame is its generated run.
-/
import proofs.«164655_j35837207118659_2_alg».proof.Defs
import proofs.«164655_j35837207118659_2_alg».proof.Proof.Gen.Kernel
import proofs.«164655_j35837207118659_2_alg».proof.Proof.Gen.KernelIdeal
import proofs.«164655_j35837207118659_2_alg».proof.Proof.Gen.ReferenceIdeal
import proofs.«164655_j35837207118659_2_alg».proof.Proof.Gen.Pre_finite_inputs
import proofs.«164655_j35837207118659_2_alg».proof.Proof.Gen.ReferenceIdeal.Run
import proofs.«164655_j35837207118659_2_alg».proof.Proof.Gen.ReferenceIdeal.Read
import proofs.«164655_j35837207118659_2_alg».proof.Proof.FrameK
import proofs.«164655_j35837207118659_2_alg».proof.Proof.FrameKI
import proofs.«164655_j35837207118659_2_alg».proof.Proof.KRun
import proofs.«164655_j35837207118659_2_alg».proof.Proof.RefIsG
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the masked fill is named −∞, which the table gives it. -/
theorem preserves : Cert.preserves_Kernel_KernelIdeal :=
  IdealRules.named_const.statement Cert.KernelIdeal.κ "neg_big" .f32 0xFF333332#32 ⊥ rfl

/-- From memories agreeing on the arguments both programs end with their result at `Attn.G` of the arguments. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.RefIsG.ref_is_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
